-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S96x128 : Shape := ⟨2, ![96, 128]⟩
abbrev S128 : Shape := ⟨1, ![128]⟩
abbrev S64x128 : Shape := ⟨2, ![64, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg5 : FVec F S128 .f32) (main_arg6 : FVec F S64x128 .f32) (main_arg7 : FVec F S128 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S800000x16 .f32) (main_arg3 : FVec F S800000x16 .f32) (main_arg4 : FVec F S96x128 .f32) (main_arg5 : FVec F S128 .f32) (main_arg6 : FVec F S64x128 .f32) (main_arg7 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S800000x16 .f32 := Host.absf main_arg3
  let main_cst_2 : FVec F S_ .f32 := constant S_ .f32 0x7F800000#32
  let main_v10 : FVec F S800000x16 .f32 := broadcastInDim S800000x16 ![] bcast_S_S800000x16 main_cst_2
  let main_v11 : IVec S800000x16 1 := cmpf .olt main_v9 main_v10
  let main_c_3 : IVec S_ 1 := constantI S_ 1 1#1
  let main_v12 : IVec S_ 1 := (fun x v => Host.reduce IntOp.andi x v reducesTo_S800000x16_S_d0_1 h_S_) main_v11 main_c_3
  let main_v13 : IVec S_ 1 := andi main_v8 main_v12
  let main_v14 : FVec F S96x128 .f32 := Host.absf main_arg4
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S96x128 : Shape := ⟨2, ![96, 128]⟩
abbrev S128 : Shape := ⟨1, ![128]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x32 : Shape := ⟨2, ![800000, 32]⟩
abbrev S50000x32 : Shape := ⟨2, ![50000, 32]⟩
abbrev S50000x96 : Shape := ⟨2, ![50000, 96]⟩
abbrev S1x128 : Shape := ⟨2, ![1, 128]⟩
abbrev S50000x128 : Shape := ⟨2, ![50000, 128]⟩
abbrev S5000x96 : Shape := ⟨2, ![5000, 96]⟩
abbrev S5000x64 : Shape := ⟨2, ![5000, 64]⟩
abbrev S5000x128 : Shape := ⟨2, ![5000, 128]⟩

abbrev nBuf : Space → Nat
  | .hbm => 36
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S800000x16, .f32⟩
  | .hbm, ⟨4, _⟩ => ⟨S96x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x64, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .bf16⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S800000x32, .f32⟩
  | .hbm, ⟨28, _⟩ => ⟨S_, .f32⟩
  | .hbm, ⟨29, _⟩ => ⟨S50000x32, .f32⟩
  | .hbm, ⟨30, _⟩ => ⟨S800000x1, .i32⟩
  | .hbm, ⟨31, _⟩ => ⟨S50000x32, .f32⟩
  | .hbm, ⟨32, _⟩ => ⟨S50000x96, .f32⟩
  | .hbm, ⟨33, _⟩ => ⟨S1x128, .f32⟩
  | .hbm, ⟨34, _⟩ => ⟨S1x128, .f32⟩
  | .hbm, ⟨35, _⟩ => ⟨S50000x128, .f32⟩
  | .local _ .vmem, ⟨0, _⟩ => ⟨S5000x96, .f32⟩
  | .local _ .vmem, ⟨1, _⟩ => ⟨S5000x96, .f32⟩
  | .local _ .vmem, ⟨2, _⟩ => ⟨S5000x64, .f32⟩
  | .local _ .vmem, ⟨3, _⟩ => ⟨S5000x64, .f32⟩
  | .local _ .vmem, ⟨4, _⟩ => ⟨S96x128, .f32⟩
  | .local _ .vmem, ⟨5, _⟩ => ⟨S1x128, .f32⟩
  | .local _ .vmem, ⟨6, _⟩ => ⟨S64x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  concatenates_S800000x16_S800000x16_S800000x32_d1 : Shape.Concatenates [S800000x16, S800000x16] S800000x32 1
  bcast_S_S50000x32 : S_.BroadcastsInDim S50000x32 (![] : Fin 0 → Fin S50000x32.rank)
  concatenates_S50000x64_S50000x32_S50000x96_d1 : Shape.Concatenates [S50000x64, S50000x32] S50000x96 1
  shapeCasts_S128_S1x128 : S128.ShapeCasts S1x128
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S5000x64_S5000x64_0_0 : ∀ a, (![0, 0] : Fin 2 → Nat) a + S5000x64.size a ≤ S5000x64.size a
  h_S5000x64 : 0 < S5000x64.numel
  inb_S96x128_S96x128_0_0 : ∀ a, (![0, 0] : Fin 2 → Nat) a + S96x128.size a ≤ S96x128.size a
  h_S96x128 : 0 < S96x128.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x32_S800000x1_S800000x32_1_0_0_1_wf : ScatterDims.WF S50000x32 S800000x1 S800000x32 [1] [0] [0] 1
  dot_S5000x96_S96x128_S5000x128_1_0_0_1_n_n_wf : DotDims.WF S5000x96 S96x128 S5000x128 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x128.size a ≤ S96x128.size a
  hwx0_2 : ∀ i : grid0.Coords, EltTy.bits .f32 = 32 ∨ (Rect.block (s := S96x128) S96x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v20) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S96x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S96x128 : Shape := ⟨2, ![96, 128]⟩
abbrev S128 : Shape := ⟨1, ![128]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S50000x96 : Shape := ⟨2, ![50000, 96]⟩
abbrev S50000x128 : Shape := ⟨2, ![50000, 128]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S800000x16, .f32⟩
  | .hbm, ⟨4, _⟩ => ⟨S96x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S800000x96, .f32⟩
  | .hbm, ⟨22, _⟩ => ⟨S_, .f32⟩
  | .hbm, ⟨23, _⟩ => ⟨S50000x96, .f32⟩
  | .hbm, ⟨24, _⟩ => ⟨S800000x1, .i32⟩
  | .hbm, ⟨25, _⟩ => ⟨S50000x96, .f32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x16_S800000x16_S800000x96_d1 : Shape.Concatenates [S800000x64, S800000x16, S800000x16] S800000x96 1
  bcast_S_S50000x96 : S_.BroadcastsInDim S50000x96 (![] : Fin 0 → Fin S50000x96.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x64_S800000x1_S800000x64_1_0_n_n_0_1_164_wf : GatherDims.WF S50000x64 S800000x1 S800000x64 [1] [0] [] [0] [] 1 ![1, 64]
  scatter_S50000x96_S800000x1_S800000x96_1_0_0_1_wf : ScatterDims.WF S50000x96 S800000x1 S800000x96 [1] [0] [0] 1
  dot_S50000x96_S96x128_S50000x128_1_0_0_1_n_n_wf : DotDims.WF S50000x96 S96x128 S50000x128 [1] [0] [0] [1] [] []
  dot_S50000x64_S64x128_S50000x128_1_0_0_1_n_n_wf : DotDims.WF S50000x64 S64x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.LibScatterAddRows.lean ====
/-
  An accumulating scatter of whole rows, read at an entry.

  The operand is an `N × C` array, the updates an `E × C` array, and update row `e` is added onto the operand row
  whose number is the `e`-th scatter index (one signed integer per update row); a row whose index is negative or
  `≥ N` is dropped. On the extended reals the result at `(n, c)` is therefore the operand's entry plus the sum, over
  the update rows `e` whose index is `n`, of the update entry `(e, c)`: the columns never mix.

  Everything is general in the three extents and in the width of the index integers.
-/
import Idealize.ShloMosaic.PureOps.Ideal
import Idealize.ShloMosaic.PureOps.Contract
import Idealize.ShloMosaic.Lib.ValueIdx

noncomputable section

namespace LibScatterAddRows

open Idealize.ShloMosaic Idealize.ShloMosaic.ValueIdx

variable {N E C w : Nat}

/-- The dimension numbers of a row scatter: operand `[N, C]`, one index per update row held as `[E, 1]`, updates
    `[E, C]`; the update's axis 1 is the window, the operand's axis 0 is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- On the row axis the window of update entry `(e, b)` starts at the `e`-th scatter index, read signed. -/
theorem start_row (idx : IVec ⟨2, ![E, 1]⟩ w) (e : Fin E) (b : Fin C) :
    (rowDims N E C wf).start (ix2 e b) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e b) ⟨List.idxOf (0 : Fin 2) (rowDims N E C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis it starts at zero. -/
theorem start_col (idx : IVec ⟨2, ![E, 1]⟩ w) (e : Fin E) (b : Fin C) :
    (rowDims N E C wf).start (ix2 e b) idx 1 = 0 := by
  unfold ScatterDims.start
  rw [dif_neg (show ¬ (1 : Fin 2) ∈ (rowDims N E C wf).scatterDimsToOperandDims from by
    intro h; exact absurd (congrArg Fin.val (List.mem_singleton.mp h)) Nat.one_ne_zero)]

/-- The window coordinate on the row axis is zero … -/
theorem window_row (e : Fin E) (b : Fin C) : (rowDims N E C wf).window (ix2 e b) 0 = 0 := by
  unfold ScatterDims.window
  rw [dif_neg (show ¬ (0 : Fin 2) ∈ (rowDims N E C wf).sKept from by
    show ¬ (0 : Fin 2) ∈ ([1] : List (Fin 2))
    intro h; exact absurd (congrArg Fin.val (List.mem_singleton.mp h)) Nat.zero_ne_one)]

/-- … and on the column axis it is the update entry's column. -/
theorem window_col (e : Fin E) (b : Fin C) : (rowDims N E C wf).window (ix2 e b) 1 = b.val := by
  unfold ScatterDims.window
  rw [dif_pos (show (1 : Fin 2) ∈ (rowDims N E C wf).sKept from by
    show (1 : Fin 2) ∈ ([1] : List (Fin 2))
    exact List.mem_singleton.mpr rfl)]
  rfl

/-- WHERE AN UPDATE ENTRY LANDS: entry `(e, b)` lands on operand entry `(n, c)` exactly when the `e`-th index is
    `n` and the columns agree. -/
theorem resultIdx?_iff (idx : IVec ⟨2, ![E, 1]⟩ w) (e : Fin E) (b : Fin C) (n : Fin N) (c : Fin C) :
    (rowDims N E C wf).resultIdx? (ix2 e b) idx = some (ix2 n c)
      ↔ (idx (ix2 e (0 : Fin 1))).toInt = (n.val : Int) ∧ b = c := by
  have hs0 := start_row wf idx e b
  have hs1 := start_col wf idx e b
  have hw0 := window_row wf e b
  have hw1 := window_col wf e b
  unfold ScatterDims.resultIdx?
  constructor
  · intro H
    split at H
    · rename_i h
      have H' := Option.some.inj H
      have h0 : ((rowDims N E C wf).start (ix2 e b) idx 0 + (rowDims N E C wf).window (ix2 e b) 0).toNat = n.val :=
        congrArg (fun f => (f 0).val) H'
      have h1 : ((rowDims N E C wf).start (ix2 e b) idx 1 + (rowDims N E C wf).window (ix2 e b) 1).toNat = c.val :=
        congrArg (fun f => (f 1).val) H'
      have hh0 := (h 0).1
      rw [hs0, hw0] at h0 hh0
      rw [hs1, hw1] at h1
      exact ⟨by omega, Fin.ext (by omega)⟩
    · exact absurd H (by simp)
  · rintro ⟨h0, rfl⟩
    have hn : n.val < N := n.isLt
    have hb : b.val < C := b.isLt
    have h : ∀ a, 0 ≤ (rowDims N E C wf).start (ix2 e b) idx a + (rowDims N E C wf).window (ix2 e b) a
        ∧ (rowDims N E C wf).start (ix2 e b) idx a + (rowDims N E C wf).window (ix2 e b) a
          < (⟨2, ![N, C]⟩ : Shape).size a :=
      Fin.forall_fin_two.2 ⟨by
        rw [hs0, hw0, h0]
        refine ⟨by omega, ?_⟩
        show (n.val : Int) + ((0 : Nat) : Int) < ((N : Nat) : Int)
        omega, by
        rw [hs1, hw1]
        refine ⟨by omega, ?_⟩
        show (0 : Int) + ((b.val : Nat) : Int) < ((C : Nat) : Int)
        omega⟩
    rw [dif_pos h]
    refine congrArg some (funext ?_)
    refine Fin.forall_fin_two.2 ⟨Fin.ext ?_, Fin.ext ?_⟩
    · show ((rowDims N E C wf).start (ix2 e b) idx 0 + (rowDims N E C wf).window (ix2 e b) 0).toNat = n.val
      rw [hs0, hw0, h0]; omega
    · show ((rowDims N E C wf).start (ix2 e b) idx 1 + (rowDims N E C wf).window (ix2 e b) 1).toNat = b.val
      rw [hs1, hw1]; omega

/-- THE ROW SCATTER READ AT AN ENTRY, on the extended reals: the operand's entry plus the update entries of the
    same column in the rows whose index is `n`. -/
theorem hostScatterAdd_rows (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_iff]
  by_cases hq : (idx (ix2 e (0 : Fin 1))).toInt = (n.val : Int)
  · simp only [hq, true_and, Finset.sum_ite_eq', Finset.mem_univ, if_true]
  · simp only [hq, false_and, if_false, Finset.sum_const_zero]

/-- The same for the host operation as a program prints it, read at the exact instance. -/
theorem scatterAdd_rows (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (rowDims N E C wf) x idx upd (ix2 n c)
      = x (ix2 n c) + ∑ e : Fin E, if (idx (ix2 e (0 : Fin 1))).toInt = (n.val : Int) then upd (ix2 e c) else 0 :=
  hostScatterAdd_rows wf x idx upd n c

end LibScatterAddRows

end
-- ==== Proof.EdgeSum.lean ====
/-
  Summing edge messages onto nodes commutes with laying feature blocks side by side.

  Every edge `e` carries a message row, and `idx e` names the node the edge points at. Aggregation adds, onto the zero
  row of each node, the message rows of the edges that point at it. A message row here is three blocks laid side
  by side — 64 gathered node features, then two blocks of 16 edge features. Because aggregation works on each
  column by itself (LibScatterAddRows: entry `(n, c)` of the result only ever sees entries `(e, c)` of the
  messages), it does not matter whether the blocks are joined before aggregating (one aggregation of 96-wide rows)
  or after (the first block aggregated by itself, the two edge blocks joined to 32-wide rows and aggregated, the
  two results joined): column `c` of either result is the same sum over the same edges of the same numbers.
  No algebraic law of the extended reals is used, only that the same terms are summed.
-/
import proofs.«126736_j40364102647896_2_alg».proof.Proof.LibScatterAddRows
import Idealize.ShloMosaic.Lib.Pipeline.Value

noncomputable section

namespace Cert.EdgeSum

open Idealize.ShloMosaic Idealize.ShloMosaic.ValueIdx LibScatterAddRows

/-- Pieces of `R` rows laid side by side (joined along the column axis) into `T` columns, read at `(r, c)`: the
    piece `k` whose columns start at `pre` and hold `c`, at `(r, c - pre)`. -/
theorem cat_cols_apply {α : Type} {R T : Nat} (xs : List ((s : Shape) × (s.Idx → α)))
    (h : Shape.Concatenates (xs.map (·.1)) ⟨2, ![R, T]⟩ 1)
    (k : Nat) (hk : k < xs.length) (A : Nat) (x₁ : (⟨2, ![R, A]⟩ : Shape).Idx → α)
    (hxk : xs[k] = ⟨⟨2, ![R, A]⟩, x₁⟩) (pre : Nat)
    (hpre : (((xs.take k).map (·.1)).map fun s =>
      if h : s.rank = (⟨2, ![R, T]⟩ : Shape).rank then s.size ((1 : Fin 2).cast h.symm) else 0).sum = pre)
    (r : Fin R) (c : Fin T) (b : Fin A) (hb : pre + b.val = c.val) :
    concatenate ⟨2, ![R, T]⟩ 1 xs h (ix2 r c) = x₁ (ix2 r b) := by
  refine concatenate_apply_piece (t := ⟨2, ![R, T]⟩) (1 : Fin 2) xs h (ix2 r c) k hk ⟨2, ![R, A]⟩ x₁ hxk rfl pre hpre
    (ix2 r b) ?_ ?_
  · exact Fin.forall_fin_two.2 ⟨fun _ => rfl, fun hne => absurd rfl hne⟩
  · exact hb

variable (wf96 : ScatterDims.WF ⟨2, ![50000, 96]⟩ ⟨2, ![800000, 1]⟩ ⟨2, ![800000, 96]⟩ [1] [0] [0] 1)
  (wf64 : ScatterDims.WF ⟨2, ![50000, 64]⟩ ⟨2, ![800000, 1]⟩ ⟨2, ![800000, 64]⟩ [1] [0] [0] 1)
  (wf32 : ScatterDims.WF ⟨2, ![50000, 32]⟩ ⟨2, ![800000, 1]⟩ ⟨2, ![800000, 32]⟩ [1] [0] [0] 1)

/-- JOIN THEN AGGREGATE = AGGREGATE THEN JOIN. `g` is the 64-wide block, `a` and `t` the two 16-wide blocks, `idx`
    the node each edge points at; the three starting arrays all hold one number `κ` everywhere. -/
theorem aggregate_blocks (idx : IVec ⟨2, ![800000, 1]⟩ 32)
    (g : FVec Ideal ⟨2, ![800000, 64]⟩ .f32) (a t : FVec Ideal ⟨2, ![800000, 16]⟩ .f32)
    (z96 : FVec Ideal ⟨2, ![50000, 96]⟩ .f32) (z64 : FVec Ideal ⟨2, ![50000, 64]⟩ .f32)
    (z32 : FVec Ideal ⟨2, ![50000, 32]⟩ .f32) (κ : EReal)
    (h96 : ∀ i, z96 i = κ) (h64 : ∀ i, z64 i = κ) (h32 : ∀ i, z32 i = κ)
    (hmsg : Shape.Concatenates [(⟨2, ![800000, 64]⟩ : Shape), ⟨2, ![800000, 16]⟩, ⟨2, ![800000, 16]⟩] ⟨2, ![800000, 96]⟩ 1)
    (hedge : Shape.Concatenates [(⟨2, ![800000, 16]⟩ : Shape), ⟨2, ![800000, 16]⟩] ⟨2, ![800000, 32]⟩ 1)
    (hnode : Shape.Concatenates [(⟨2, ![50000, 64]⟩ : Shape), ⟨2, ![50000, 32]⟩] ⟨2, ![50000, 96]⟩ 1) :
    concatenate (⟨2, ![50000, 96]⟩ : Shape) 1
        [⟨⟨2, ![50000, 64]⟩, Host.scatterAdd (F := Ideal) (rowDims 50000 800000 64 wf64) z64 idx g⟩,
         ⟨⟨2, ![50000, 32]⟩, Host.scatterAdd (F := Ideal) (rowDims 50000 800000 32 wf32) z32 idx
            (concatenate (⟨2, ![800000, 32]⟩ : Shape) 1 [⟨⟨2, ![800000, 16]⟩, a⟩, ⟨⟨2, ![800000, 16]⟩, t⟩] hedge)⟩] hnode
      = Host.scatterAdd (F := Ideal) (rowDims 50000 800000 96 wf96) z96 idx
          (concatenate (⟨2, ![800000, 96]⟩ : Shape) 1
            [⟨⟨2, ![800000, 64]⟩, g⟩, ⟨⟨2, ![800000, 16]⟩, a⟩, ⟨⟨2, ![800000, 16]⟩, t⟩] hmsg) := by
  funext i
  obtain ⟨n, c, rfl⟩ : ∃ (n : Fin 50000) (c : Fin 96), i = ix2 n c := ⟨i 0, i 1, eq_ix2 i⟩
  rw [scatterAdd_rows wf96, h96]
  by_cases hc : c.val < 64
  · -- a column of the gathered block
    have e1 := cat_cols_apply (α := EReal) (R := 50000) (T := 96)
          [⟨⟨2, ![50000, 64]⟩, Host.scatterAdd (F := Ideal) (rowDims 50000 800000 64 wf64) z64 idx g⟩,
         ⟨⟨2, ![50000, 32]⟩, Host.scatterAdd (F := Ideal) (rowDims 50000 800000 32 wf32) z32 idx
            (concatenate (⟨2, ![800000, 32]⟩ : Shape) 1 [⟨⟨2, ![800000, 16]⟩, a⟩, ⟨⟨2, ![800000, 16]⟩, t⟩] hedge)⟩] hnode 0 (by simp) 64
      (Host.scatterAdd (F := Ideal) (rowDims 50000 800000 64 wf64) z64 idx g) rfl 0 rfl n c ⟨c.val, hc⟩ (Nat.zero_add _)
    rw [e1, scatterAdd_rows wf64, h64]
    refine congrArg (κ + ·) (Finset.sum_congr rfl fun e _ => ?_)
    have e2 := cat_cols_apply (α := EReal) (R := 800000) (T := 96)
          [⟨⟨2, ![800000, 64]⟩, g⟩, ⟨⟨2, ![800000, 16]⟩, a⟩, ⟨⟨2, ![800000, 16]⟩, t⟩] hmsg 0 (by simp) 64 g rfl 0 rfl e c ⟨c.val, hc⟩ (Nat.zero_add _)
    rw [e2]
  · have hc' : c.val - 64 < 32 := by have := c.isLt; omega
    have e1 := cat_cols_apply (α := EReal) (R := 50000) (T := 96)
          [⟨⟨2, ![50000, 64]⟩, Host.scatterAdd (F := Ideal) (rowDims 50000 800000 64 wf64) z64 idx g⟩,
         ⟨⟨2, ![50000, 32]⟩, Host.scatterAdd (F := Ideal) (rowDims 50000 800000 32 wf32) z32 idx
            (concatenate (⟨2, ![800000, 32]⟩ : Shape) 1 [⟨⟨2, ![800000, 16]⟩, a⟩, ⟨⟨2, ![800000, 16]⟩, t⟩] hedge)⟩] hnode 1 (by simp) 32
      (Host.scatterAdd (F := Ideal) (rowDims 50000 800000 32 wf32) z32 idx
        (concatenate (⟨2, ![800000, 32]⟩ : Shape) 1 [⟨⟨2, ![800000, 16]⟩, a⟩, ⟨⟨2, ![800000, 16]⟩, t⟩] hedge))
      rfl 64 rfl n c ⟨c.val - 64, hc'⟩ (by show 64 + (c.val - 64) = c.val; omega)
    rw [e1, scatterAdd_rows wf32, h32]
    refine congrArg (κ + ·) (Finset.sum_congr rfl fun e _ => ?_)
    by_cases hc2 : c.val < 80
    · -- a column of the first edge block
      have hb : c.val - 64 < 16 := by omega
      have e2 := cat_cols_apply (α := EReal) (R := 800000) (T := 96)
          [⟨⟨2, ![800000, 64]⟩, g⟩, ⟨⟨2, ![800000, 16]⟩, a⟩, ⟨⟨2, ![800000, 16]⟩, t⟩] hmsg 1 (by simp) 16 a rfl 64 rfl e c ⟨c.val - 64, hb⟩
        (by show 64 + (c.val - 64) = c.val; omega)
      have e3 := cat_cols_apply (α := EReal) (R := 800000) (T := 32)
          [⟨⟨2, ![800000, 16]⟩, a⟩, ⟨⟨2, ![800000, 16]⟩, t⟩] hedge 0 (by simp) 16 a rfl 0 rfl e ⟨c.val - 64, hc'⟩
        ⟨c.val - 64, hb⟩ (Nat.zero_add _)
      rw [e2, e3]
    · -- a column of the second edge block
      have hb : c.val - 80 < 16 := by have := c.isLt; omega
      have e2 := cat_cols_apply (α := EReal) (R := 800000) (T := 96)
          [⟨⟨2, ![800000, 64]⟩, g⟩, ⟨⟨2, ![800000, 16]⟩, a⟩, ⟨⟨2, ![800000, 16]⟩, t⟩] hmsg 2 (by simp) 16 t rfl 80 rfl e c ⟨c.val - 80, hb⟩
        (by show 80 + (c.val - 80) = c.val; omega)
      have e3 := cat_cols_apply (α := EReal) (R := 800000) (T := 32)
          [⟨⟨2, ![800000, 16]⟩, a⟩, ⟨⟨2, ![800000, 16]⟩, t⟩] hedge 1 (by simp) 16 t rfl 16 rfl e ⟨c.val - 64, hc'⟩
        ⟨c.val - 80, hb⟩ (by show 16 + (c.val - 80) = c.val - 64; omega)
      rw [e2, e3]

end Cert.EdgeSum

end
-- ==== Proof.AggregatedArray.lean ====
/-
  The aggregated array the kernel's region finds is the reference's aggregated array.

  Before its one region the kernel's host code gathers the source-node rows of `x` (through a narrower float format
  and back, which on the extended reals changes nothing), aggregates them onto the destination nodes, joins the two
  edge-feature blocks and aggregates those, and joins the two aggregates. The reference gathers the same rows,
  joins all three blocks and aggregates once. By `Cert.EdgeSum.aggregate_blocks` the two arrays are equal: both
  programs read the destination of each edge off the same row of `edge_index`, the source off the same other row,
  and start from the zero array.
-/
import proofs.«126736_j40364102647896_2_alg».proof.Proof.Gen.KernelIdeal.Frame
import proofs.«126736_j40364102647896_2_alg».proof.Proof.Gen.ReferenceIdeal.Read
import proofs.«126736_j40364102647896_2_alg».proof.Proof.EdgeSum
import Idealize.ShloMosaic.Lib.StableHlo.Run

noncomputable section

namespace Cert.KernelIdeal.Aggregated

open Cert.KernelIdeal Cert.KernelIdeal.Gen Idealize.ShloMosaic Idealize.ShloMosaic.TcCoe Idealize.SL.Sem

/-- Gathering rows of an array that was first narrowed to a 16-bit float format, then widening the gathered rows
    back, is gathering rows of the array itself: on the extended reals both changes of format are the identity, and
    a gather only moves entries. -/
theorem gather_through_narrow {s si t : Shape} {w : Nat} (d : GatherDims s si t) (x : FVec Ideal s .f32) (i : IVec si w)
    (h : FTy.bf16.bits < FTy.f32.bits) :
    extf .f32 (Host.gather d (truncf .bf16 x h) i) h = Host.gather d x i := rfl

set_option maxHeartbeats 4000000 in
/-- THE AGGREGATED ARRAY AS THE REGION FINDS IT is the reference's aggregation stage of the same four arguments. -/
theorem found (m : (ℓ : Loc nD τ sig) → Buf (Elt Ideal) ℓ) (c : Dev nD) :
    @Eq (S50000x96.Idx → EReal) (V m c main_v20)
      (Cert.ReferenceIdeal.Read.val_main_v14 (F := Ideal) (m ((c : Thread nD τ).loc main_arg0)) (m ((c : Thread nD τ).loc main_arg1))
        (m ((c : Thread nD τ).loc main_arg2)) (m ((c : Thread nD τ).loc main_arg3))) := by
  dsimp only [Gen.V, Gen.hostOps0]
  after_results
  rw [gather_through_narrow]
  exact Cert.EdgeSum.aggregate_blocks
    Cert.ReferenceIdeal.Facts₀.scatter_S50000x96_S800000x1_S800000x96_1_0_0_1_wf
    Cert.KernelIdeal.Facts₀.scatter_S50000x64_S800000x1_S800000x64_1_0_0_1_wf
    Cert.KernelIdeal.Facts₀.scatter_S50000x32_S800000x1_S800000x32_1_0_0_1_wf
    _ _ _ _ _ _ _ (Ideal.ofBits .f32 0x00000000#32) (fun _ => rfl) (fun _ => rfl) (fun _ => rfl) _ _ _

end Cert.KernelIdeal.Aggregated

end
-- ==== Proof.Spec.lean ====
/-
  The function both programs compute, entry by entry, on the extended reals.

  A graph layer over 50000 nodes: every node `r` owns a row `agg r` of 96 aggregated message features and its own
  row `x r` of 64 node features. Output feature `o` of node `r` is

      1/2 · ( Σ_k agg[r,k] · Wm[k,o]  +  bm[o] )   +   ( Σ_k x[r,k] · Wr[k,o]  +  br[o] )

  — two affine maps, the first halved, added. The aggregated row is left as a parameter here: how it is formed
  from the edges (a sum over the edges that point at the node) is the subject of another module.
-/
import Idealize.ShloMosaic.PureOps.Ideal
import Idealize.ShloMosaic.Lib.ValueIdx

noncomputable section

namespace Cert.NodeUpdate

open Idealize.ShloMosaic Idealize.ShloMosaic.ValueIdx

/-- The weight of the message branch: the binary number one half. -/
abbrev half : EReal := Ideal.ofBits .f32 0x3F000000#32

/-- Output feature `o` of node `r`: the halved affine image of the aggregated row plus the affine image of the node's own row. -/
def entry (agg : (⟨2, ![50000, 96]⟩ : Shape).Idx → EReal) (x : (⟨2, ![50000, 64]⟩ : Shape).Idx → EReal)
    (Wm : (⟨2, ![96, 128]⟩ : Shape).Idx → EReal) (bm : (⟨1, ![128]⟩ : Shape).Idx → EReal)
    (Wr : (⟨2, ![64, 128]⟩ : Shape).Idx → EReal) (br : (⟨1, ![128]⟩ : Shape).Idx → EReal)
    (r : Fin 50000) (o : Fin 128) : EReal :=
  half * ((∑ k : Fin 96, agg (ix2 r k) * Wm (ix2 k o)) + bm (ix1 o))
    + ((∑ k : Fin 64, x (ix2 r k) * Wr (ix2 k o)) + br (ix1 o))

/-- The whole output array: `entry` at each index's two coordinates. -/
def out (agg : (⟨2, ![50000, 96]⟩ : Shape).Idx → EReal) (x : (⟨2, ![50000, 64]⟩ : Shape).Idx → EReal)
    (Wm : (⟨2, ![96, 128]⟩ : Shape).Idx → EReal) (bm : (⟨1, ![128]⟩ : Shape).Idx → EReal)
    (Wr : (⟨2, ![64, 128]⟩ : Shape).Idx → EReal) (br : (⟨1, ![128]⟩ : Shape).Idx → EReal) :
    (⟨2, ![50000, 128]⟩ : Shape).Idx → EReal :=
  fun i => entry agg x Wm bm Wr br (i 0) (i 1)

theorem out_apply (agg : (⟨2, ![50000, 96]⟩ : Shape).Idx → EReal) (x : (⟨2, ![50000, 64]⟩ : Shape).Idx → EReal)
    (Wm : (⟨2, ![96, 128]⟩ : Shape).Idx → EReal) (bm : (⟨1, ![128]⟩ : Shape).Idx → EReal)
    (Wr : (⟨2, ![64, 128]⟩ : Shape).Idx → EReal) (br : (⟨1, ![128]⟩ : Shape).Idx → EReal)
    (r : Fin 50000) (o : Fin 128) :
    out agg x Wm bm Wr br (ix2 r o) = entry agg x Wm bm Wr br r o := rfl

end Cert.NodeUpdate

end
-- ==== Proof.ReferenceValue.lean ====
/-
  The reference's result, entry by entry, is the node update of Spec.lean applied to ITS aggregated array.

  The reference forms the aggregated array (one aggregation of the 96-wide message rows), multiplies it by `Wm`,
  adds the bias row, halves; multiplies `x` by `Wr`, adds the other bias row; adds the two. Reading each of those
  stages at an index `(r, o)` — a matrix product as a sum over the contracted index, a broadcast bias as the bias
  at `o`, the broadcast constant as itself — gives, term for term, `Cert.NodeUpdate.entry`.
-/
import proofs.«126736_j40364102647896_2_alg».proof.Proof.Gen.ReferenceIdeal.Read
import proofs.«126736_j40364102647896_2_alg».proof.Proof.Spec

noncomputable section

namespace Cert.ReferenceIdeal.NodeValue

open Cert.ReferenceIdeal Cert.ReferenceIdeal.Gen Cert.ReferenceIdeal.Read
open Idealize.ShloMosaic Idealize.ShloMosaic.ValueIdx

/-- The left factor of the message product at `(r, o)`, term `k`, is the aggregated array at `(r, k)` … -/
theorem lidx15 (r : Fin 50000) (o : Fin 128) (k : Fin 96) : lidx_main_v15 (ix2 r o) k = ix2 r k :=
  funext fun a => Fin.ext (by match a with | ⟨0, _⟩ => rfl | ⟨1, _⟩ => rfl)
/-- … and the right factor is `Wm` at `(k, o)`. -/
theorem ridx15 (r : Fin 50000) (o : Fin 128) (k : Fin 96) : ridx_main_v15 (ix2 r o) k = ix2 k o :=
  funext fun a => Fin.ext (by match a with | ⟨0, _⟩ => rfl | ⟨1, _⟩ => rfl)
/-- The same for the node's own product: `x` at `(r, k)` … -/
theorem lidx19 (r : Fin 50000) (o : Fin 128) (k : Fin 64) : lidx_main_v19 (ix2 r o) k = ix2 r k :=
  funext fun a => Fin.ext (by match a with | ⟨0, _⟩ => rfl | ⟨1, _⟩ => rfl)
/-- … times `Wr` at `(k, o)`. -/
theorem ridx19 (r : Fin 50000) (o : Fin 128) (k : Fin 64) : ridx_main_v19 (ix2 r o) k = ix2 k o :=
  funext fun a => Fin.ext (by match a with | ⟨0, _⟩ => rfl | ⟨1, _⟩ => rfl)
/-- A bias row broadcast down the rows is read, at `(r, o)`, at `o`. -/
theorem bias17 (r : Fin 50000) (o : Fin 128) : idx_main_v16 (idx_main_v17 (ix2 r o)) = ix1 o :=
  funext fun a => Fin.ext (by match a with | ⟨0, _⟩ => rfl)
theorem bias21 (r : Fin 50000) (o : Fin 128) : idx_main_v20 (idx_main_v21 (ix2 r o)) = ix1 o :=
  funext fun a => Fin.ext (by match a with | ⟨0, _⟩ => rfl)

/-- THE REFERENCE IS THE SPECIFICATION over its own aggregated array (`val_main_v14`). -/
theorem result_is_spec (x0 : (⟨S50000x64, .f32⟩ : BufTy).Contents (Elt Ideal)) (x1 : (⟨S2x800000, .i32⟩ : BufTy).Contents (Elt Ideal))
    (x2 x3 : (⟨S800000x16, .f32⟩ : BufTy).Contents (Elt Ideal)) (x4 : (⟨S96x128, .f32⟩ : BufTy).Contents (Elt Ideal))
    (x5 : (⟨S128, .f32⟩ : BufTy).Contents (Elt Ideal)) (x6 : (⟨S64x128, .f32⟩ : BufTy).Contents (Elt Ideal))
    (x7 : (⟨S128, .f32⟩ : BufTy).Contents (Elt Ideal)) :
    val_main_v25 (F := Ideal) x0 x1 x2 x3 x4 x5 x6 x7
      = Cert.NodeUpdate.out (val_main_v14 (F := Ideal) x0 x1 x2 x3) x0 x4 x5 x6 x7 := by
  funext i
  obtain ⟨r, o, rfl⟩ : ∃ (r : Fin 50000) (o : Fin 128), i = ix2 r o := ⟨i 0, i 1, eq_ix2 i⟩
  rw [Cert.NodeUpdate.out_apply]
  unfold Cert.NodeUpdate.entry
  rw [val_main_v25_apply, val_main_v24_apply, val_main_v23_apply, val_main_cst_1_apply, val_main_v18_apply,
    val_main_v15_apply, val_main_v17_apply, val_main_v16_apply, val_main_v22_apply, val_main_v19_apply,
    val_main_v21_apply, val_main_v20_apply]
  simp only [lidx15, ridx15, lidx19, ridx19, bias17, bias21]
  rfl

end Cert.ReferenceIdeal.NodeValue

end
-- ==== Proof.Contraction.lean ====
/-
  The two contractions of the node update, read one entry at a time.

  On the extended reals the matrix unit's product into a zero accumulator has no rounding and no order left in
  it: entry (p, o) of a [5000, K] block times a [K, 128] matrix is the plain sum over the K shared positions of
  the row's entry times the column's entry. The unit describes which coordinate of each operand the shared
  position runs over by a record of axis lists (contract axis 1 of the left operand with axis 0 of the right,
  keep axis 0 of the left and axis 1 of the right); the lemmas below turn that record's index functions into the
  coordinates (p, k) and (k, o), once for K = 96 (the aggregated message features) and once for K = 64 (the
  node's own features).
-/
import proofs.«126736_j40364102647896_2_alg».proof.Proof.Gen.KernelIdeal.Skeleton
import Idealize.ShloMosaic.Lib.ValueIdx
import Idealize.ShloMosaic.PureOps.Ideal.Laws

noncomputable section

namespace Cert.KernelIdeal.NodeValue

open Cert.KernelIdeal Idealize.ShloMosaic Idealize.ShloMosaic.ValueIdx

/-! ## The 96-term contraction: aggregated features against the message weights -/

/-- The left operand's row is the output's row, whatever the shared position. -/
theorem msgLhs_row (i : S5000x128.Idx) (q : dot_S5000x96_S96x128_S5000x128_1_0_0_1_n_n.contr.Idx) :
    (dot_S5000x96_S96x128_S5000x128_1_0_0_1_n_n.lhsIdx i q 0).val = (i 0).val := by
  unfold DotDims.lhsIdx
  rw [dif_neg (show ¬(0 : Fin S5000x96.rank) ∈ dot_S5000x96_S96x128_S5000x128_1_0_0_1_n_n.lhsBatch by decide),
    dif_pos (show (0 : Fin S5000x96.rank) ∈ dot_S5000x96_S96x128_S5000x128_1_0_0_1_n_n.lhsNonContracting by decide)]
  rfl

/-- The left operand's column is the shared position. -/
theorem msgLhs_col (i : S5000x128.Idx) (q : dot_S5000x96_S96x128_S5000x128_1_0_0_1_n_n.contr.Idx) :
    (dot_S5000x96_S96x128_S5000x128_1_0_0_1_n_n.lhsIdx i q 1).val = (q ⟨0, by decide⟩).val :=
  dot_S5000x96_S96x128_S5000x128_1_0_0_1_n_n.lhsIdx_val_of_single rfl i q

/-- The right operand's row is the shared position. -/
theorem msgRhs_row (i : S5000x128.Idx) (q : dot_S5000x96_S96x128_S5000x128_1_0_0_1_n_n.contr.Idx) :
    (dot_S5000x96_S96x128_S5000x128_1_0_0_1_n_n.rhsIdx i q 0).val = (q ⟨0, by decide⟩).val :=
  dot_S5000x96_S96x128_S5000x128_1_0_0_1_n_n.rhsIdx_val_of_single rfl i q

/-- The right operand's column is the output's column. -/
theorem msgRhs_col (i : S5000x128.Idx) (q : dot_S5000x96_S96x128_S5000x128_1_0_0_1_n_n.contr.Idx) :
    (dot_S5000x96_S96x128_S5000x128_1_0_0_1_n_n.rhsIdx i q 1).val = (i 1).val := by
  unfold DotDims.rhsIdx
  rw [dif_neg (show ¬(1 : Fin S96x128.rank) ∈ dot_S5000x96_S96x128_S5000x128_1_0_0_1_n_n.rhsBatch by decide),
    dif_pos (show (1 : Fin S96x128.rank) ∈ dot_S5000x96_S96x128_S5000x128_1_0_0_1_n_n.rhsNonContracting by decide)]
  rfl

/-- Entry (p, o) of the block-times-weights product into a zero accumulator: the 96-term inner product of row p of
    the block with column o of the weights. -/
theorem msgProduct_apply (a : FVec Ideal S5000x96 .bf16) (w : FVec Ideal S96x128 .bf16) (p : Fin 5000) (o : Fin 128) :
    matmul dot_S5000x96_S96x128_S5000x128_1_0_0_1_n_n none a w (constant (F := Ideal) S5000x128 .f32 0x00000000#32) (ix2 p o)
      = ∑ k : Fin 96, a (ix2 p k) * w (ix2 k o) := by
  simp only [matmul]
  rw [Ideal.matmul_constant_zero_apply,
    ← Equiv.sum_comp (ValueIdx.contrEquiv1 dot_S5000x96_S96x128_S5000x128_1_0_0_1_n_n 96 rfl rfl).symm]
  refine Finset.sum_congr rfl fun k _ => ?_
  have hk := ValueIdx.contrEquiv1_symm_val dot_S5000x96_S96x128_S5000x128_1_0_0_1_n_n 96 rfl rfl k
  have el : dot_S5000x96_S96x128_S5000x128_1_0_0_1_n_n.lhsIdx (ix2 p o)
      ((ValueIdx.contrEquiv1 dot_S5000x96_S96x128_S5000x128_1_0_0_1_n_n 96 rfl rfl).symm k) = ix2 p k :=
    funext fun d => Fin.ext (by
      match d with
      | ⟨0, _⟩ => exact msgLhs_row _ _
      | ⟨1, _⟩ => exact (msgLhs_col _ _).trans hk)
  have er : dot_S5000x96_S96x128_S5000x128_1_0_0_1_n_n.rhsIdx (ix2 p o)
      ((ValueIdx.contrEquiv1 dot_S5000x96_S96x128_S5000x128_1_0_0_1_n_n 96 rfl rfl).symm k) = ix2 k o :=
    funext fun d => Fin.ext (by
      match d with
      | ⟨0, _⟩ => exact (msgRhs_row _ _).trans hk
      | ⟨1, _⟩ => exact msgRhs_col _ _)
  rw [el, er]

/-! ## The 64-term contraction: the node's own features against the root weights -/

/-- The left operand's row is the output's row, whatever the shared position. -/
theorem rootLhs_row (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl

/-- The left operand's column is the shared position. -/
theorem rootLhs_col (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q

/-- The right operand's row is the shared position. -/
theorem rootRhs_row (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q

/-- The right operand's column is the output's column. -/
theorem rootRhs_col (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- Entry (p, o) of the block-times-weights product into a zero accumulator: the 64-term inner product of row p of
    the block with column o of the weights. -/
theorem rootProduct_apply (a : FVec Ideal S5000x64 .bf16) (w : FVec Ideal S64x128 .bf16) (p : Fin 5000) (o : Fin 128) :
    matmul dot_S5000x64_S64x128_S5000x128_1_0_0_1_n_n none a w (constant (F := Ideal) S5000x128 .f32 0x00000000#32) (ix2 p o)
      = ∑ k : Fin 64, a (ix2 p k) * w (ix2 k o) := by
  simp only [matmul]
  rw [Ideal.matmul_constant_zero_apply,
    ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p o)
      ((ValueIdx.contrEquiv1 dot_S5000x64_S64x128_S5000x128_1_0_0_1_n_n 64 rfl rfl).symm k) = ix2 p k :=
    funext fun d => Fin.ext (by
      match d with
      | ⟨0, _⟩ => exact rootLhs_row _ _
      | ⟨1, _⟩ => exact (rootLhs_col _ _).trans hk)
  have er : dot_S5000x64_S64x128_S5000x128_1_0_0_1_n_n.rhsIdx (ix2 p o)
      ((ValueIdx.contrEquiv1 dot_S5000x64_S64x128_S5000x128_1_0_0_1_n_n 64 rfl rfl).symm k) = ix2 k o :=
    funext fun d => Fin.ext (by
      match d with
      | ⟨0, _⟩ => exact (rootRhs_row _ _).trans hk
      | ⟨1, _⟩ => exact rootRhs_col _ _)
  rw [el, er]

end Cert.KernelIdeal.NodeValue

end
-- ==== Proof.BodyEntry.lean ====
/-
  One entry of what the body stores, as a formula in the entries of the blocks it loaded.

  At a grid point the body holds six blocks: 5000 rows of aggregated message features (96 wide), the same 5000
  rows of node features (64 wide), the two weight matrices whole, and the two bias vectors, each laid out as a
  single row of 128. What it stores at row p, column o of its 5000 x 128 output block is

      1/2 * ( sum_k agg[p,k] * Wm[k,o]  +  bm[0,o] )   +   ( sum_k x[p,k] * Wr[k,o]  +  br[0,o] ).

  Nothing else is left of the body's operations once they are read on the extended reals: the narrowing of the
  operands to a shorter float format changes no value, a cast of a block to its own shape is the identity, each
  matrix product into a zero accumulator is the inner product of a row with a column, a bias row broadcast down
  the block is read at row 0 whatever the output's row, and the splat of the constant one half is that constant.
  The constant is kept as the word it is printed with and never evaluated.

  The second statement says the same with the blocks' entries named by the arrays they were cut from: if row p of
  the two feature blocks is row r of the feature arrays, and the weights and biases are the arrays' own, the
  stored value is entry (r, o) of the node update.
-/
import proofs.«126736_j40364102647896_2_alg».proof.Proof.Spec
import proofs.«126736_j40364102647896_2_alg».proof.Proof.Contraction
import Idealize.ShloMosaic.Lib.ValueLayout

noncomputable section

namespace Cert.KernelIdeal.NodeValue

open Cert.KernelIdeal Cert.KernelIdeal.Gen Idealize.ShloMosaic Idealize.ShloMosaic.ValueIdx

/-- The stored block at (p, o): the halved affine image of row p of the aggregated block plus the affine image
    of row p of the node block. (The body's arithmetic takes its operands in the order aggregated block, node
    block, message weights, root weights, message bias, root bias.) -/
theorem body_entry (x0 : Vec Ideal S5000x96 .f32) (x1 : Vec Ideal S5000x64 .f32) (x2 : Vec Ideal S96x128 .f32)
    (x3 : Vec Ideal S1x128 .f32) (x4 : Vec Ideal S64x128 .f32) (x5 : Vec Ideal S1x128 .f32) (p : Fin 5000) (o : Fin 128) :
    k0_pay1 (F := Ideal) x0 x1 x2 x4 x3 x5 (ix2 p o)
      = Cert.NodeUpdate.half * ((∑ k : Fin 96, x0 (ix2 p k) * x2 (ix2 k o)) + x3 (ix2 (0 : Fin 1) o))
        + ((∑ k : Fin 64, x1 (ix2 p k) * x4 (ix2 k o)) + x5 (ix2 (0 : Fin 1) o)) := by
  unfold k0_pay1
  -- the two sums, the product with the splat and the two bias additions are entrywise; then each contraction and
  -- each row broadcast is read at (p, o)
  rw [addf_apply, mulf_apply, broadcast_apply, addf_apply, addf_apply,
    msgProduct_apply, rootProduct_apply, broadcastTo_1b_ab_apply, broadcastTo_1b_ab_apply]
  -- what is left between the loaded blocks and the formula changes no entry
  simp only [shapeCast_self, truncf_apply]
  rfl

/-- The same entry with the blocks read off the arrays: when local row p of the feature blocks is row r of the
    arrays, the weight blocks are the weight arrays in column o, and the bias rows hold the bias vectors at o, the
    stored value is entry (r, o) of the node update. -/
theorem block_entry (agg : S50000x96.Idx → EReal) (x : S50000x64.Idx → EReal) (Wm : S96x128.Idx → EReal)
    (bm : S128.Idx → EReal) (Wr : S64x128.Idx → EReal) (br : S128.Idx → EReal)
    (x0 : Vec Ideal S5000x96 .f32) (x1 : Vec Ideal S5000x64 .f32) (x2 : Vec Ideal S96x128 .f32)
    (x3 : Vec Ideal S1x128 .f32) (x4 : Vec Ideal S64x128 .f32) (x5 : Vec Ideal S1x128 .f32)
    (r : Fin 50000) (p : Fin 5000) (o : Fin 128)
    (h0 : ∀ k : Fin 96, x0 (ix2 p k) = agg (ix2 r k)) (h1 : ∀ k : Fin 64, x1 (ix2 p k) = x (ix2 r k))
    (h2 : ∀ k : Fin 96, x2 (ix2 k o) = Wm (ix2 k o)) (h3 : x3 (ix2 (0 : Fin 1) o) = bm (ix1 o))
    (h4 : ∀ k : Fin 64, x4 (ix2 k o) = Wr (ix2 k o)) (h5 : x5 (ix2 (0 : Fin 1) o) = br (ix1 o)) :
    k0_pay1 (F := Ideal) x0 x1 x2 x4 x3 x5 (ix2 p o) = Cert.NodeUpdate.entry agg x Wm bm Wr br r o := by
  rw [body_entry]
  unfold Cert.NodeUpdate.entry
  simp only [h0, h1, h2, h3, h4, h5]

end Cert.KernelIdeal.NodeValue

end
-- ==== Proof.RegionValue.lean ====
/-
  From the blocks to the whole array: what the output array holds after the region.

  The region walks a grid of ten points. Point t loads rows 5000 t ... 5000 t + 4999 of the aggregated-feature array
  and of the node-feature array, loads the two weight matrices and the two bias rows whole, and writes rows
  5000 t ... 5000 t + 4999 of the output. The ten row bands are disjoint and together they are all 50000 rows, so
  the output array after the last point is determined row by row: row r was written, once, by point r / 5000.

  What a point writes is, entry by entry, the node update of the arrays the region reads: local row p of a feature
  block at point t is row 5000 t + p of the array (a block's coordinate on an axis is always its block index times
  the block's extent plus the coordinate inside the block, and the block indices here are (t, 0) for the row-banded
  arrays and (0, 0) for the ones loaded whole); the weight blocks are the weight arrays; and each bias block is the
  [1, 128] array that the host made from the [128] bias argument by a reshape before the region, so its entry (0, o)
  is the argument's entry o (the two have the same position in row-major order).

  So the array ends as the node update of: the aggregated array as the region finds it, the node features, the
  message weights, the message bias, the root weights and the root bias — the last five being arguments of the
  program, which no host operation before the region writes.
-/
import proofs.«126736_j40364102647896_2_alg».proof.Proof.BodyEntry
import proofs.«126736_j40364102647896_2_alg».proof.Proof.Gen.KernelIdeal.Value
import Idealize.ShloMosaic.Lib.Pipeline.Value
import Idealize.ShloMosaic.Lib.Tactic

noncomputable section

namespace Cert.KernelIdeal.NodeValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The two bias rows the region reads -/

/-- The [1, 128] array of the message bias, as the region finds it, is the [128] bias argument laid out as one row:
    the host's reshape is the only operation before the region that writes it, and it reads the argument as launched. -/
theorem msgBias_array (c : Dev nD) :
    (V m c main_v21 : S1x128.Idx → EReal)
      = shapeCast S1x128 (m ((c : Thread nD τ).loc main_arg5) : S128.Idx → EReal) shapeCasts_S128_S1x128 := by
  dsimp only [Gen.V, Gen.hostOps0]; after_results; rfl

/-- The same for the root bias. -/
theorem rootBias_array (c : Dev nD) :
    (V m c main_v22 : S1x128.Idx → EReal)
      = shapeCast S1x128 (m ((c : Thread nD τ).loc main_arg7) : S128.Idx → EReal) shapeCasts_S128_S1x128 := by
  dsimp only [Gen.V, Gen.hostOps0]; after_results; rfl

/-! ## Where each block sits in its array -/

/-- The body's loads and its store start at the corner of their buffers. -/
theorem zeroOffsets : (![0, 0] : Fin 2 → Nat) = fun _ => 0 := funext fun a => by fin_cases a <;> rfl

/-- The block indices at grid point t, read off the printed index maps at each of the ten points: the two feature
    arrays and the output move down one row band per point, (t, 0); the weights and the bias rows stay at (0, 0). -/
theorem blockIndices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The node update of the arrays as the region finds them. -/
abbrev regionValue (c : Dev nD) : S50000x128.Idx → EReal :=
  Cert.NodeUpdate.out (V m c main_v20) (V m c main_arg0) (V m c main_arg4) (m ((c : Thread nD τ).loc main_arg5))
    (V m c main_arg6) (m ((c : Thread nD τ).loc main_arg7))

/-! ## Each input block, entry by entry, as an entry of its array -/

/-- Local row p of the aggregated block at point t is row 5000 t + p of the aggregated array. -/
theorem aggBlock_apply (c : Dev nD) (t : Fin cfg0.N) (p : Fin 5000) (k : Fin 96) (r : Fin 50000)
    (hr : r.val = 5000 * t.val + p.val) :
    (iblk m c 0 t : Vec Ideal S5000x96 .f32) (ix2 p k) = (V m c main_v20 : S50000x96.Idx → EReal) (ix2 r k) := by
  obtain ⟨e0, e1, -⟩ := blockIndices t
  unfold iblk
  rw [View.read_apply]
  show V m c main_v20 _ = V m c main_v20 _
  congr 1
  funext a
  apply Fin.ext
  match a with
  | ⟨0, _⟩ => show win0_0.index t 0 * 5000 + 1 * p.val = r.val; rw [e0, hr]; omega
  | ⟨1, _⟩ => show win0_0.index t 1 * 96 + 1 * k.val = k.val; rw [e1]; omega

/-- Local row p of the node-feature block at point t is row 5000 t + p of the node-feature array. -/
theorem nodeBlock_apply (c : Dev nD) (t : Fin cfg0.N) (p : Fin 5000) (k : Fin 64) (r : Fin 50000)
    (hr : r.val = 5000 * t.val + p.val) :
    (iblk m c 1 t : Vec Ideal S5000x64 .f32) (ix2 p k) = (V m c main_arg0 : S50000x64.Idx → EReal) (ix2 r k) := by
  obtain ⟨-, -, e0, e1, -⟩ := blockIndices t
  unfold iblk
  rw [View.read_apply]
  show V m c main_arg0 _ = V m c main_arg0 _
  congr 1
  funext a
  apply Fin.ext
  match a with
  | ⟨0, _⟩ => show win0_1.index t 0 * 5000 + 1 * p.val = r.val; rw [e0, hr]; omega
  | ⟨1, _⟩ => show win0_1.index t 1 * 64 + 1 * k.val = k.val; rw [e1]; omega

/-- The message-weight block is the message-weight array, at every point. -/
theorem msgWeights_apply (c : Dev nD) (t : Fin cfg0.N) (k : Fin 96) (o : Fin 128) :
    (iblk m c 2 t : Vec Ideal S96x128 .f32) (ix2 k o) = (V m c main_arg4 : S96x128.Idx → EReal) (ix2 k o) := by
  obtain ⟨-, -, -, -, e0, e1, -⟩ := blockIndices t
  unfold iblk
  rw [View.read_apply]
  show V m c main_arg4 _ = V m c main_arg4 _
  congr 1
  funext a
  apply Fin.ext
  match a with
  | ⟨0, _⟩ => show win0_2.index t 0 * 96 + 1 * k.val = k.val; rw [e0]; omega
  | ⟨1, _⟩ => show win0_2.index t 1 * 128 + 1 * o.val = o.val; rw [e1]; omega

/-- The message-bias block's entry (0, o) is entry o of the bias argument: the block is the whole one-row array, and
    the one-row array is the argument in row-major order. -/
theorem msgBias_apply (c : Dev nD) (t : Fin cfg0.N) (o : Fin 128) :
    (iblk m c 3 t : Vec Ideal S1x128 .f32) (ix2 (0 : Fin 1) o)
      = (m ((c : Thread nD τ).loc main_arg5) : S128.Idx → EReal) (ix1 o) := by
  obtain ⟨-, -, -, -, -, -, e0, e1, -⟩ := blockIndices t
  refine Eq.trans ?_ (shapeCast_a_1a_apply (m ((c : Thread nD τ).loc main_arg5) : S128.Idx → EReal) shapeCasts_S128_S1x128 (0 : Fin 1) o)
  rw [← msgBias_array m c]
  unfold iblk
  rw [View.read_apply]
  show V m c main_v21 _ = V m c main_v21 _
  congr 1
  funext a
  apply Fin.ext
  match a with
  | ⟨0, _⟩ => show win0_3.index t 0 * 1 + 1 * 0 = 0; rw [e0]
  | ⟨1, _⟩ => show win0_3.index t 1 * 128 + 1 * o.val = o.val; rw [e1]; omega

/-- The root-weight block is the root-weight array, at every point. -/
theorem rootWeights_apply (c : Dev nD) (t : Fin cfg0.N) (k : Fin 64) (o : Fin 128) :
    (iblk m c 4 t : Vec Ideal S64x128 .f32) (ix2 k o) = (V m c main_arg6 : S64x128.Idx → EReal) (ix2 k o) := by
  obtain ⟨-, -, -, -, -, -, -, -, e0, e1, -⟩ := blockIndices t
  unfold iblk
  rw [View.read_apply]
  show V m c main_arg6 _ = V m c main_arg6 _
  congr 1
  funext a
  apply Fin.ext
  match a with
  | ⟨0, _⟩ => show win0_4.index t 0 * 64 + 1 * k.val = k.val; rw [e0]; omega
  | ⟨1, _⟩ => show win0_4.index t 1 * 128 + 1 * o.val = o.val; rw [e1]; omega

/-- The root-bias block's entry (0, o) is entry o of the bias argument. -/
theorem rootBias_apply (c : Dev nD) (t : Fin cfg0.N) (o : Fin 128) :
    (iblk m c 5 t : Vec Ideal S1x128 .f32) (ix2 (0 : Fin 1) o)
      = (m ((c : Thread nD τ).loc main_arg7) : S128.Idx → EReal) (ix1 o) := by
  obtain ⟨-, -, -, -, -, -, -, -, -, -, e0, e1, -⟩ := blockIndices t
  refine Eq.trans ?_ (shapeCast_a_1a_apply (m ((c : Thread nD τ).loc main_arg7) : S128.Idx → EReal) shapeCasts_S128_S1x128 (0 : Fin 1) o)
  rw [← rootBias_array m c]
  unfold iblk
  rw [View.read_apply]
  show V m c main_v22 _ = V m c main_v22 _
  congr 1
  funext a
  apply Fin.ext
  match a with
  | ⟨0, _⟩ => show win0_5.index t 0 * 1 + 1 * 0 = 0; rw [e0]
  | ⟨1, _⟩ => show win0_5.index t 1 * 128 + 1 * o.val = o.val; rw [e1]; omega

/-! ## What a point writes back -/

/-- The body's one store fills its whole output buffer, and every load reads a whole input buffer: what the buffer
    holds after the body is the body's arithmetic applied to the loaded blocks. -/
theorem stored_eq_pay (x0 : Vec Ideal S5000x96 .f32) (x1 : Vec Ideal S5000x64 .f32) (x2 : Vec Ideal S96x128 .f32)
    (x3 : Vec Ideal S1x128 .f32) (x4 : Vec Ideal S64x128 .f32) (x5 : Vec Ideal S1x128 .f32) :
    out0_6 (F := Ideal) x0 x1 x2 x3 x4 x5 = k0_pay1 x0 x1 x2 x4 x3 x5 := by
  unfold out0_6
  rw [View.canon_unit_zero zeroOffsets]
  simp only [View.ld_unit_zero (S := S5000x96) zeroOffsets, View.ld_unit_zero (S := S5000x64) zeroOffsets,
    View.ld_unit_zero (S := S96x128) zeroOffsets, View.ld_unit_zero (S := S64x128) zeroOffsets,
    View.ld_unit_zero (S := S1x128) zeroOffsets]

/-- Writing a 5000 x 128 block back at point t and reading an array G through the same block agree as soon as the
    block's local row p holds G's row 5000 t + p: the block's place in the array is rows 5000 t onwards, all 128
    columns. Stated for an arbitrary block and array. -/
theorem writeBack_of_rows (t : Fin cfg0.N) (Y : Vec Ideal S5000x128 .f32) (G : S50000x128.Idx → EReal)
    (h : ∀ (p : Fin 5000) (o : Fin 128) (r : Fin 50000), r.val = 5000 * t.val + p.val → Y (ix2 p o) = G (ix2 r o)) :
    (cfg0.win 6).cut (grid0.coords t) Y = ((cfg0.win 6).blk t).view.read (Elt Ideal) G := by
  have hN : cfg0.N = 10 := N_0
  have ht : t.val < 10 := hN ▸ t.isLt
  obtain ⟨-, -, -, -, -, -, -, -, -, -, -, -, e0, e1⟩ := blockIndices t
  refine funext fun (j : S5000x128.Idx) => ?_
  obtain ⟨p, o, rfl⟩ : ∃ (p : Fin 5000) (o : Fin 128), j = ix2 p o := ⟨j 0, j 1, eq_ix2 j⟩
  have hp : p.val < 5000 := p.isLt
  show Y (ix2 p o) = G (((cfg0.win 6).blk t).view.emb (ix2 p o))
  have he : ((cfg0.win 6).blk t).view.emb (ix2 p o) = (ix2 (⟨5000 * t.val + p.val, by omega⟩ : Fin 50000) o : S50000x128.Idx) := by
    funext a
    apply Fin.ext
    match a with
    | ⟨0, _⟩ => show win0_6.index t 0 * 5000 + 1 * p.val = 5000 * t.val + p.val; rw [e0]; omega
    | ⟨1, _⟩ => show win0_6.index t 1 * 128 + 1 * o.val = o.val; rw [e1]; omega
  rw [he]
  exact h p o _ rfl

/-- POINT t WRITES BACK block t of the node update of the arrays the region reads: the stored buffer is the body's
    arithmetic of the six input blocks, whose entry (p, o) is the node update's entry (5000 t + p, o) because each
    input block is the matching piece of its array. -/
theorem flushed_eq (c : Dev nD) (t : Fin cfg0.N) :
    (dats m 0 c).flushed 6 t = ((cfg0.win 6).blk t).view.read (Elt Ideal) (regionValue m c) := by
  rw [Value.flushed6]
  refine writeBack_of_rows t (out0_6 (iblk m c 0 t) (iblk m c 1 t) (iblk m c 2 t) (iblk m c 3 t) (iblk m c 4 t) (iblk m c 5 t))
    (regionValue m c) fun p o r hr => ?_
  refine (congrFun (stored_eq_pay (iblk m c 0 t) (iblk m c 1 t) (iblk m c 2 t) (iblk m c 3 t) (iblk m c 4 t) (iblk m c 5 t)) (ix2 p o)).trans ?_
  refine (block_entry (V m c main_v20) (V m c main_arg0) (V m c main_arg4) (m ((c : Thread nD τ).loc main_arg5))
    (V m c main_arg6) (m ((c : Thread nD τ).loc main_arg7))
    (iblk m c 0 t) (iblk m c 1 t) (iblk m c 2 t) (iblk m c 3 t) (iblk m c 4 t) (iblk m c 5 t)
    r p o
    (fun k => aggBlock_apply m c t p k r hr) (fun k => nodeBlock_apply m c t p k r hr)
    (fun k => msgWeights_apply m c t k o) (msgBias_apply m c t o)
    (fun k => rootWeights_apply m c t k o) (rootBias_apply m c t o)).trans ?_
  exact (Cert.NodeUpdate.out_apply (V m c main_v20) (V m c main_arg0) (V m c main_arg4) (m ((c : Thread nD τ).loc main_arg5))
    (V m c main_arg6) (m ((c : Thread nD τ).loc main_arg7)) r o).symm

/-! ## The ten blocks cover the array -/

/-- An index of the output array is in point t's block iff each coordinate is within the block's range on its axis. -/
theorem mem_block (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v23).slice (win0_6.rect t)).set ↔ _
  rw [View.set_slice_whole, Rect.mem_set_unit]
  exact Iff.rfl

/-- Every index lies in some point's block: row r is in the band of point r / 5000, and every block has all 128 columns.
    Every point writes its block back. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, e0, e1⟩ := blockIndices t
  refine ⟨t, flush0_6 t, ?_⟩
  rw [mem_block]
  intro a
  match a with
  | ⟨0, _⟩ =>
    show win0_6.index t 0 * 5000 ≤ (i 0).val ∧ (i 0).val < win0_6.index t 0 * 5000 + 5000
    rw [e0, ht]; omega
  | ⟨1, _⟩ =>
    show win0_6.index t 1 * 128 ≤ (i 1).val ∧ (i 1).val < win0_6.index t 1 * 128 + 128
    rw [e1]; omega

/-- THE OUTPUT ARRAY after the last point is the node update of the arrays the region reads. -/
theorem final (c : Dev nD) : (dats m 0 c).arrAt 6 cfg0.N = regionValue m c :=
  (dats m 0 c).arrAt_eq_of_cover 6 (regionValue m c) (fun t _ => flushed_eq m c t) cover

/-! ## The run -/

/-- Every run of the program ends with the output array at the node update of the aggregated array (as the region finds
    it) and of the five arguments (the region finds them as launched), and with every argument unchanged. -/
theorem run : θ_run defs (onTc (τ := τ) (main (F := Ideal))) ⟨m, fun _ => 0, ρ⟩ fun r => ∀ c : Dev nD,
      r.2.mem ((c : Thread nD τ).loc main_v23)
          = Cert.NodeUpdate.out (V m c main_v20) (m ((c : Thread nD τ).loc main_arg0)) (m ((c : Thread nD τ).loc main_arg4))
              (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (by
      unfold regionValue; rw [V_main_arg0 m c, V_main_arg4 m c, V_main_arg6 m c])), (h c).2⟩)
    (Value.run_blocks m ρ)

end Cert.KernelIdeal.NodeValue

end
-- ==== Proof.lean ====
/-
  A graph layer's node update computed two ways, equal on the extended reals.

  Inputs: node features `x` (50000 × 64), for each of 800000 edges its destination and source node (the two rows of
  `edge_index`), two blocks of edge features (800000 × 16 each), weights `Wm` (96 × 128), `Wr` (64 × 128) and two
  bias rows of 128. A message row is the source node's features followed by the two edge blocks (96 numbers); the
  aggregated array adds, onto a zero row per node, the message rows of the edges pointing at that node; the result is

      out[r, o] = 1/2 · ( Σ_k agg[r,k]·Wm[k,o] + bm[o] )  +  ( Σ_k x[r,k]·Wr[k,o] + br[o] )        (Spec.lean).

  The reference joins the three blocks and aggregates once, then applies the formula with two whole matrix products.
  The kernel aggregates the gathered block and the joined edge blocks separately and joins the aggregates; it then
  evaluates the formula 5000 rows at a time, each row block by one matrix-unit product per branch.

  Why they agree, with no use of the inputs' finiteness:
  • aggregation acts column by column, so joining blocks before or after it gives the same array
    (LibScatterAddRows.lean, EdgeSum.lean), and gathering through a narrower float format is, on the extended reals,
    plain gathering — so the array the kernel's region finds is the reference's aggregated array (AggregatedArray.lean);
  • the reference's later stages, read at an index, are the formula (ReferenceValue.lean);
  • a row block of the kernel's output is the formula on that block's rows, and the ten blocks tile the rows
    (the modules on the kernel's body and its region);
  so both runs end with the same function of the same arguments. The idealization rewrote nothing in the kernel
  (its ledger is empty), and each program runs to completion leaving its arguments as they were.
-/
import proofs.«126736_j40364102647896_2_alg».proof.Defs
import proofs.«126736_j40364102647896_2_alg».proof.Proof.Gen.Kernel
import proofs.«126736_j40364102647896_2_alg».proof.Proof.Gen.Kernel.Skeleton
import proofs.«126736_j40364102647896_2_alg».proof.Proof.Gen.Kernel.Launch
import proofs.«126736_j40364102647896_2_alg».proof.Proof.Gen.Kernel.Points
import proofs.«126736_j40364102647896_2_alg».proof.Proof.Gen.Kernel.Frame
import proofs.«126736_j40364102647896_2_alg».proof.Proof.Gen.KernelIdeal
import proofs.«126736_j40364102647896_2_alg».proof.Proof.Gen.KernelIdeal.Skeleton
import proofs.«126736_j40364102647896_2_alg».proof.Proof.Gen.KernelIdeal.Launch
import proofs.«126736_j40364102647896_2_alg».proof.Proof.Gen.KernelIdeal.Points
import proofs.«126736_j40364102647896_2_alg».proof.Proof.Gen.KernelIdeal.Frame
import proofs.«126736_j40364102647896_2_alg».proof.Proof.Gen.ReferenceIdeal
import proofs.«126736_j40364102647896_2_alg».proof.Proof.Gen.Pre_finite_inputs
import proofs.«126736_j40364102647896_2_alg».proof.Proof.Gen.KernelIdeal.Value
import proofs.«126736_j40364102647896_2_alg».proof.Proof.Gen.ReferenceIdeal.Run
import proofs.«126736_j40364102647896_2_alg».proof.Proof.Gen.ReferenceIdeal.Read
import proofs.«126736_j40364102647896_2_alg».proof.Proof.AggregatedArray
import proofs.«126736_j40364102647896_2_alg».proof.Proof.ReferenceValue
import proofs.«126736_j40364102647896_2_alg».proof.Proof.RegionValue
import Idealize.ShloMosaic.Adequacy
import Idealize.ShloMosaic.Init

noncomputable section

namespace Cert.Proof

open Idealize.ShloMosaic Idealize.ShloMosaic.TcCoe Idealize.SL.Sem

/-- The three frames: the two kernels' are generated whole; the reference has no kernel, and its frame is its
    generated run with the result forgotten. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the node update of the reference's aggregated array of the (agreeing)
    arguments: the kernel because the array its region finds is that aggregated array, the reference because its
    last stage, read at an index, is the formula. -/
theorem algebraic : Cert.algebraic_KernelIdeal_ReferenceIdeal := by
  intro m ρ m' ρ' _ hagree
  refine ⟨fun c => Cert.NodeUpdate.out
      (Cert.ReferenceIdeal.Read.val_main_v14 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
        (m ((c : Thread Cert.KernelIdeal.nD Cert.KernelIdeal.τ).loc Cert.KernelIdeal.main_arg2)) (m ((c : Thread Cert.KernelIdeal.nD Cert.KernelIdeal.τ).loc Cert.KernelIdeal.main_arg3)))
      (m ((c : Thread Cert.KernelIdeal.nD Cert.KernelIdeal.τ).loc Cert.KernelIdeal.main_arg0)) (m ((c : Thread Cert.KernelIdeal.nD Cert.KernelIdeal.τ).loc Cert.KernelIdeal.main_arg4)) (m ((c : Thread Cert.KernelIdeal.nD Cert.KernelIdeal.τ).loc Cert.KernelIdeal.main_arg5))
      (m ((c : Thread Cert.KernelIdeal.nD Cert.KernelIdeal.τ).loc Cert.KernelIdeal.main_arg6)) (m ((c : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩) (Cert.KernelIdeal.NodeValue.run m ρ)
    rw [Cert.KernelIdeal.Aggregated.found]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.NodeValue.result_is_spec,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
